-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096 : Shape := ⟨1, ![4096]⟩
abbrev S128x8192 : Shape := ⟨2, ![128, 8192]⟩
abbrev S128 : Shape := ⟨1, ![128]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .i32⟩
  | .local _ .vmem, ⟨3, _⟩ => ⟨S128x8192, .i32⟩
  | .local _ .vmem, ⟨4, _⟩ => ⟨S128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  natLt_1_32 : 1 < 32
  reduces_S128x8192_S128 : S128x8192.Reduces [1] S128
  inb_S128_S128_0 : ∀ a, (![0] : Fin 1 → Nat) a + S128.size a ≤ S128.size a
  h_S128 : 0 < S128.numel
  bcast_S_S4096 : S_.BroadcastsInDim S4096 (![] : Fin 0 → Fin S4096.rank)
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .i32 = 32 ∨ (Rect.block (s := S4096x8192) S128x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S4096.size a
  hwx0_2 : ∀ i : grid0.Coords, EltTy.bits .f32 = 32 ∨ (Rect.block (s := S4096) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S4096.size a
  hwx0_3 : ∀ i : grid0.Coords, EltTy.bits .f32 = 32 ∨ (Rect.block (s := S4096) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S4096.size a
  hwx0_4 : ∀ i : grid0.Coords, EltTy.bits .f32 = 32 ∨ (Rect.block (s := S4096) S128.size (cc0_transform_4 i) (hinb0_4 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S_, .i32⟩
  | .hbm, ⟨3, _⟩ => ⟨S4096x8192, .i32⟩
  | .hbm, ⟨4, _⟩ => ⟨S4096x8192, .i1⟩
  | .hbm, ⟨5, _⟩ => ⟨S4096x8192, .i1⟩
  | .hbm, ⟨6, _⟩ => ⟨S4096x8192, .i32⟩
  | .hbm, ⟨7, _⟩ => ⟨S_, .i32⟩
  | .hbm, ⟨8, _⟩ => ⟨S4096, .i32⟩
  | .hbm, ⟨9, _⟩ => ⟨S4096, .f32⟩
  | .hbm, ⟨10, _⟩ => ⟨S4096x8192, .i1⟩
  | .hbm, ⟨11, _⟩ => ⟨S4096x8192, .i32⟩
  | .hbm, ⟨12, _⟩ => ⟨S_, .i32⟩
  | .hbm, ⟨13, _⟩ => ⟨S4096, .i32⟩
  | .hbm, ⟨14, _⟩ => ⟨S4096, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S_, .f32⟩
  | .hbm, ⟨32, _⟩ => ⟨S4096x8192, .f32⟩
  | .hbm, ⟨33, _⟩ => ⟨S4096x8192, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_cst_11 : Ref sig .tc := ⟨.hbm, 44, rfl⟩
abbrev main_v25 : Ref sig .tc := ⟨.hbm, 45, rfl⟩
abbrev main_v26 : Ref sig .tc := ⟨.hbm, 46, rfl⟩
abbrev main_cst_12 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  reducesTo_S4096_S_d0 : S4096.ReducesTo [0] S_

variable [Facts₀]

class Facts : Prop extends Facts₀ where

variable [Facts]
-- ==== Proof.LibCounts.lean ====
/-
  Counting the ones of a row of mask bits, three ways.

  A row of the mask is a family `p k` of one-bit words. Its number of ones is reached
  * by adding the bits as 32-bit words (each widened from one bit) with wrapping addition, from zero, and reading the
    resulting word as a signed integer: no wrap occurs, because a row has fewer than 2^31 entries;
  * by adding, as extended reals, the signed readings of the widened bits: each reading is 0 or 1;
  * and the complemented bits count the remaining entries, so their count is the row's length less the first count.
-/
import Idealize.ShloMosaic.Lib.IndicatorCount
import Idealize.ShloMosaic.Lib.KernelVsHost
import Idealize.ShloMosaic.PureOps.Ideal

noncomputable section

namespace Cert.RowLoss

open Idealize.ShloMosaic

variable {ι : Type} [Fintype ι]

/-- The number of ones among the bits `p`. -/
def ones (p : ι → BitVec 1) : ℕ := by
  classical exact (Finset.univ.filter fun k => p k = 1#1).card

theorem ones_le (p : ι → BitVec 1) : ones p ≤ Fintype.card ι := by
  classical
  unfold ones
  exact (Finset.card_filter_le _ _).trans (le_of_eq Finset.card_univ)

/-- A number below 2^31 written as a 32-bit word and read back signed is that number. -/
theorem toInt_ofNat_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The wrapping 32-bit sum of the widened bits, read signed, is the number of ones: the row is too short to wrap. -/
theorem word_sum_eq_ones (p : ι → BitVec 1) (h : Fintype.card ι < 2 ^ 31) :
    ((Finset.univ : Finset ι).fold IntOp.addi (0#32) (fun k => (p k).setWidth 32)).toInt = (ones p : ℤ) := by
  classical
  rw [IndicatorCount.fold_addi_setWidth_eq_card]
  exact toInt_ofNat_small _ (lt_of_le_of_lt (ones_le p) h)

/-- A widened bit read signed is 1 where the bit is set and 0 elsewhere. -/
theorem bit_reading (b : BitVec 1) : ((b.setWidth 32).toInt : ℝ) = if b = 1#1 then 1 else 0 := by
  rw [toInt_setWidth_bit]
  by_cases hb : b = 1#1
  · rw [if_pos hb, hb]; norm_num
  · rw [if_neg hb, ValueIdx.eq_zero_of_ne_one hb]; norm_num

/-- The real sum of the bits' signed readings is the number of ones. -/
theorem real_sum_eq_ones (p : ι → BitVec 1) : (∑ k : ι, (((p k).setWidth 32).toInt : ℝ)) = (ones p : ℝ) := by
  classical
  simp only [bit_reading]
  rw [Finset.sum_boole]
  rfl

/-- A finite sum of reals, taken in the extended reals, is the real sum. -/
theorem coe_sum (x : ι → ℝ) : (∑ k : ι, ((x k : ℝ) : EReal)) = ((∑ k : ι, x k : ℝ) : EReal) := by
  classical
  induction (Finset.univ : Finset ι) using Finset.induction_on with
  | empty => simp
  | insert a S ha ih => rw [Finset.sum_insert ha, Finset.sum_insert ha, ih, EReal.coe_add]

/-- Complementing a bit swaps set and unset. -/
theorem not_eq_one_iff : ∀ b : BitVec 1, (~~~b = 1#1) ↔ ¬ b = 1#1 := by decide

/-- The complemented bits count the entries the bits do not: together they make the row. -/
theorem ones_not (p : ι → BitVec 1) : ones (fun k => ~~~(p k)) + ones p = Fintype.card ι := by
  classical
  unfold ones
  simp only [not_eq_one_iff]
  rw [add_comm, Finset.card_filter_add_card_filter_not, Finset.card_univ]

end Cert.RowLoss

end
-- ==== Proof.Spec.lean ====
/-
  What both programs compute, stated once over the argument arrays.

  The inputs are a score array `a0` and a mask array `a1`, both 4096 rows by 8192 columns. An entry is a TARGET when its
  mask word is nonzero. Per row `r`:
    * `cntT`  the number of targets,                     `cntN`  the number of non-targets, 8192 less `cntT`;
    * `sumT`  the sum over targets of `1 - score`,       `sumN`  the sum over non-targets of `max (score - 0) 0`.
  The three results are the mean over rows of `sumT / cntT`, the mean over rows of `sumN / cntN`, and half their sum.

  The two programs differ only in how the counts are reached. One adds the mask bits as extended reals and takes
  `8192 - cntT` for the non-targets; the other adds the bits, and the complemented bits, as 32-bit words and converts
  each word. A row has 8192 entries, far fewer than 2^31, so the word sums do not wrap and all four agree.
-/
import proofs.«107713_j28011776704955_2_alg».proof.Proof.LibCounts
import Idealize.ShloMosaic.PureOps.Ideal.Laws
import Idealize.ShloMosaic.Lib.ValueIdx

noncomputable section

namespace Cert.RowLoss

open Idealize.ShloMosaic Idealize.ShloMosaic.ValueIdx

/-- The arrays' shapes: 4096 by 8192, one entry per row, and a single number. -/
abbrev Full : Shape := ⟨2, ![4096, 8192]⟩
abbrev Rows : Shape := ⟨1, ![4096]⟩
abbrev One : Shape := ⟨0, ![]⟩

/-! ## The two literals whose values matter -/

/-- `8192.0`, the row length the kernel subtracts the target count from, denotes the real 8192. -/
theorem ofBits_8192 : Ideal.ofBits .f32 0x46000000#32 = ((8192 : ℝ) : EReal) := by
  simp [Ideal.ofBits, Ideal.ieee, -EReal.coe_mul]; norm_num

/-! ## A row's mask bits and its counts -/

/-- The mask bit of row `r`, column `k`: set when the mask word there is nonzero. -/
def bit (a1 : Full.Idx → BitVec 32) (r : Fin 4096) (k : Fin 8192) : BitVec 1 :=
  IntOp.cmpi .ne (a1 (ix2 r k)) 0#32

/-- The number of targets in row `r`, as an extended real. -/
def cntT (a1 : Full.Idx → BitVec 32) : Rows.Idx → EReal :=
  fun i => ((ones (bit a1 (i 0)) : ℝ) : EReal)

/-- The number of non-targets in row `r`: the row's length less its targets. -/
def cntN (a1 : Full.Idx → BitVec 32) : Rows.Idx → EReal :=
  fun i => (((8192 : ℝ) - (ones (bit a1 (i 0)) : ℝ) : ℝ) : EReal)

theorem card_row : Fintype.card (Fin 8192) < 2 ^ 31 := by rw [Fintype.card_fin]; norm_num

/-- Adding a row's bits as extended reals (each widened bit read signed) counts its targets. -/
theorem ereal_sum_bits (p : Fin 8192 → BitVec 1) :
    (∑ k : Fin 8192, ((((p k).setWidth 32).toInt : ℝ) : EReal)) = ((ones p : ℝ) : EReal) := by
  rw [coe_sum, real_sum_eq_ones]

/-- Adding a row's bits as 32-bit words and converting the word counts its targets too. -/
theorem word_sum_bits (p : Fin 8192 → BitVec 1) :
    (((((Finset.univ : Finset (Fin 8192)).fold IntOp.addi (0#32) (fun k => (p k).setWidth 32)).toInt : ℤ) : ℝ) : EReal)
      = ((ones p : ℝ) : EReal) := by
  rw [word_sum_eq_ones p card_row]; norm_cast

/-- Adding the COMPLEMENTED bits as words and converting counts the non-targets. -/
theorem word_sum_not_bits (p : Fin 8192 → BitVec 1) :
    (((((Finset.univ : Finset (Fin 8192)).fold IntOp.addi (0#32) (fun k => (~~~(p k)).setWidth 32)).toInt : ℤ) : ℝ) : EReal)
      = (((8192 : ℝ) - (ones p : ℝ) : ℝ) : EReal) := by
  rw [word_sum_eq_ones (fun k => ~~~(p k)) card_row]
  have h := ones_not p
  rw [Fintype.card_fin] at h
  have h' : ((ones (fun k => ~~~(p k)) : ℕ) : ℝ) = (8192 : ℝ) - (ones p : ℝ) := by
    have : ((ones (fun k => ~~~(p k)) + ones p : ℕ) : ℝ) = (8192 : ℝ) := by rw [h]; norm_num
    push_cast at this; linarith
  rw [Int.cast_natCast, h']

/-- The row length less the real target count, taken in the extended reals, is the non-target count. -/
theorem len_sub_count (n : ℕ) :
    Ideal.ofBits .f32 0x46000000#32 - ((n : ℝ) : EReal) = (((8192 : ℝ) - (n : ℝ) : ℝ) : EReal) := by
  rw [ofBits_8192, ← EReal.coe_sub]

/-! ## A row's two sums -/

/-- The sum over row `r`'s targets of `1 - score` (a non-target contributes the literal zero). -/
def sumT (a0 : Full.Idx → EReal) (a1 : Full.Idx → BitVec 32) : Rows.Idx → EReal :=
  fun i => ∑ k : Fin 8192, Scalar.select (bit a1 (i 0) k)
    (Ideal.ofBits .f32 0x3F800000#32 - a0 (ix2 (i 0) k)) (Ideal.ofBits .f32 0x00000000#32)

/-- The sum over row `r`'s non-targets of `max (score - 0) 0` (a target contributes the literal zero). -/
def sumN (a0 : Full.Idx → EReal) (a1 : Full.Idx → BitVec 32) : Rows.Idx → EReal :=
  fun i => ∑ k : Fin 8192, Scalar.select (bit a1 (i 0) k)
    (Ideal.ofBits .f32 0x00000000#32)
    (max (a0 (ix2 (i 0) k) - Ideal.ofBits .f32 0x00000000#32) (Ideal.ofBits .f32 0x00000000#32))

/-! ## The part both programs end with -/

/-- The mean over the 4096 rows of the quotient `s / cnt`: the quotients added from zero, divided by `4096.0`. -/
def meanQuot (hred : Rows.ReducesTo [0] One) (hOne : 0 < One.numel) (s cnt : FVec Ideal Rows .f32) : FVec Ideal One .f32 :=
  Host.divf (F := Ideal) (Host.reduceAdd (F := Ideal) (Host.divf (F := Ideal) s cnt) (constant (F := Ideal) One .f32 0x00000000#32) hred hOne)
    (constant (F := Ideal) One .f32 0x45800000#32)

/-- Half the sum of the two means. -/
def halfSum (x y : FVec Ideal One .f32) : FVec Ideal One .f32 :=
  Host.divf (F := Ideal) (addf (F := Ideal) x y) (constant (F := Ideal) One .f32 0x40000000#32)

end Cert.RowLoss

end
-- ==== Proof.KernelRows.lean ====
/-
  What the kernel's body computes for one row of a block.

  A block is 128 rows by 8192 columns of scores `x0` and of mask words `x1`. The body stores three vectors of 128
  numbers, each a sum along the columns: for row `j`
    * the sum of the mask bits, each widened to a word and read as a signed integer: the number of targets in the row;
    * the sum of `1 - score` where the bit is set and of the literal zero elsewhere;
    * the sum of the literal zero where the bit is set and of `max (score - 0) 0` elsewhere.
  At the exact values a sum along one axis is the finite sum over that axis's coordinates, with no start value.
-/
import proofs.«107713_j28011776704955_2_alg».proof.Proof.Gen.KernelIdeal.Skeleton
import proofs.«107713_j28011776704955_2_alg».proof.Proof.Spec
import Idealize.ShloMosaic.PureOps.Ideal.Laws
import Idealize.ShloMosaic.Lib.ValueIdx

noncomputable section

namespace Cert.RowLoss.Kernel

open Cert.KernelIdeal Cert.KernelIdeal.Gen Cert.RowLoss
open Idealize.ShloMosaic Idealize.ShloMosaic.ValueIdx

/-- A sum along the columns of a block, read at row `j`: the finite sum of the row's 8192 entries. The accumulator's
    word is the zero word as printed, which is the neutral word of addition. -/
theorem lane_sum (src : FVec Ideal S128x8192 .f32) (h : S128x8192.Reduces [1] S128) (hφ : FKind.Formats .f32)
    (hacc : (0x00000000#32 : BitVec 32) = 0x00000000#32) (j : Fin 128) :
    multiReduction (F := Ideal) .add [1] S128 src 0x00000000#32 h hφ hacc (ix1 j) = ∑ k : Fin 8192, src (ix2 j k) := by
  refine (Ideal.multiReduction_add_single src 0x00000000#32 h hφ hacc (ix1 j)).trans ?_
  refine Finset.sum_congr rfl fun k _ => congrArg src ?_
  exact funext fun a => Fin.ext (by match a with | ⟨0, _⟩ => rfl | ⟨1, _⟩ => rfl)

/-- The first stored vector at row `j` is the number of set mask bits in that row of the block. -/
theorem count_row (x1 : Vec Ideal S128x8192 .i32) (j : Fin 128) :
    k0_pay2 (F := Ideal) x1 (ix1 j) = ((ones (fun k : Fin 8192 => IntOp.cmpi .ne (x1 (ix2 j k)) 0#32) : ℝ) : EReal) := by
  unfold k0_pay2
  refine (lane_sum _ _ _ _ j).trans ?_
  refine Eq.trans ?_ (ereal_sum_bits _)
  exact Finset.sum_congr rfl fun k _ => rfl

/-- The second stored vector at row `j`: `1 - score` added over the row's set bits, the literal zero over the rest. -/
theorem target_sum_row (x0 : Vec Ideal S128x8192 .f32) (x1 : Vec Ideal S128x8192 .i32) (j : Fin 128) :
    k0_pay3 (F := Ideal) x0 x1 (ix1 j)
      = ∑ k : Fin 8192, Scalar.select (IntOp.cmpi .ne (x1 (ix2 j k)) 0#32)
          (Ideal.ofBits .f32 0x3F800000#32 - x0 (ix2 j k)) (Ideal.ofBits .f32 0x00000000#32) := by
  unfold k0_pay3
  refine (lane_sum _ _ _ _ j).trans ?_
  exact Finset.sum_congr rfl fun k _ => rfl

/-- The third stored vector at row `j`: the literal zero over the row's set bits, `max (score - 0) 0` over the rest. -/
theorem nontarget_sum_row (x0 : Vec Ideal S128x8192 .f32) (x1 : Vec Ideal S128x8192 .i32) (j : Fin 128) :
    k0_pay4 (F := Ideal) x0 x1 (ix1 j)
      = ∑ k : Fin 8192, Scalar.select (IntOp.cmpi .ne (x1 (ix2 j k)) 0#32)
          (Ideal.ofBits .f32 0x00000000#32)
          (max (x0 (ix2 j k) - Ideal.ofBits .f32 0x00000000#32) (Ideal.ofBits .f32 0x00000000#32)) := by
  unfold k0_pay4
  refine (lane_sum _ _ _ _ j).trans ?_
  exact Finset.sum_congr rfl fun k _ => rfl

end Cert.RowLoss.Kernel

end
-- ==== Proof.KernelArrays.lean ====
/-
  The kernel's three output arrays after the grid has run, as functions of the argument arrays.

  The grid has 32 points. Point `t` reads rows `128 t … 128 t + 127` of both arguments (all 8192 columns) and writes rows
  `128 t … 128 t + 127` of each output. So entry `r` of an output is written by point `r / 128`, from row `r` of the
  arguments, and every entry is written: each output array ends as the specification's row function of the arguments.
-/
import proofs.«107713_j28011776704955_2_alg».proof.Proof.Gen.KernelIdeal.Frame
import proofs.«107713_j28011776704955_2_alg».proof.Proof.KernelRows
import Idealize.ShloMosaic.Lib.Pipeline.Value

set_option maxRecDepth 16384

noncomputable section

namespace Cert.RowLoss.Kernel

open Cert.KernelIdeal Cert.KernelIdeal.Gen Cert.RowLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem off1 : (![0] : Fin 1 → Nat) = fun _ => 0 := funext fun a => by fin_cases a; rfl
theorem off2 : (![0, 0] : Fin 2 → Nat) = fun _ => 0 := funext fun a => by fin_cases a <;> rfl

/-- The printed index maps, decided over the 32 points: every window's row-block index is the first output's, the
    inputs' column-block index is zero, and the row-block index stays below 32. -/
theorem idx_facts : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0
    ∧ win0_3.index t (0 : Fin 1) = win0_2.index t (0 : Fin 1)
    ∧ win0_4.index t (0 : Fin 1) = win0_2.index t (0 : Fin 1)
    ∧ win0_2.index t (0 : Fin 1) ≤ 31 :=
  (by decide +kernel : ∀ t : Fin grid0.N, _)

/-- Every row block is some point's. -/
theorem idx_onto : ∀ q : Fin 32, ∃ t : Fin cfg0.N, win0_2.index t (0 : Fin 1) = q.val :=
  (by decide +kernel : ∀ q : Fin 32, ∃ t : Fin grid0.N, win0_2.index t (0 : Fin 1) = q.val)

/-- The score block at point `t`, entry (`j`, `k`), is the score array at row `128·(row block) + j`, column `k`. -/
theorem score_block (c : Dev nD) (t : Fin cfg0.N) (j : Fin 128) (k : Fin 8192) (i : S4096x8192.Idx)
    (h0 : (i 0).val = win0_2.index t (0 : Fin 1) * 128 + j.val) (h1 : (i 1).val = k.val) :
    (iblk m c 0 t : Vec Ideal S128x8192 .f32) (ix2 j k) = (V m c main_arg0 : S4096x8192.Idx → EReal) i := by
  obtain ⟨e0, e1, -, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 128 + 1 * j.val = (i 0).val; rw [e0, h0]; omega
  | ⟨1, _⟩ => show win0_0.index t (1 : Fin 2) * 8192 + 1 * k.val = (i 1).val; rw [e1, h1]; omega

/-- The same of the mask block. -/
theorem mask_block (c : Dev nD) (t : Fin cfg0.N) (j : Fin 128) (k : Fin 8192) (i : S4096x8192.Idx)
    (h0 : (i 0).val = win0_2.index t (0 : Fin 1) * 128 + j.val) (h1 : (i 1).val = k.val) :
    (iblk m c 1 t : Vec Ideal S128x8192 .i32) (ix2 j k) = (V m c main_arg1 : S4096x8192.Idx → BitVec 32) i := by
  obtain ⟨-, -, e2, e3, -, -, -⟩ := idx_facts t
  unfold iblk
  rw [View.read_apply]
  show V m c main_arg1 _ = V m c main_arg1 _
  congr 1
  funext a
  apply Fin.ext
  match a with
  | ⟨0, _⟩ => show win0_1.index t (0 : Fin 2) * 128 + 1 * j.val = (i 0).val; rw [e2, h0]; omega
  | ⟨1, _⟩ => show win0_1.index t (1 : Fin 2) * 8192 + 1 * k.val = (i 1).val; rw [e3, h1]; omega

/-! ## What a point writes back -/

/-- Point `t` writes to the first output the target counts of its 128 rows. -/
theorem flushed_count (c : Dev nD) (t : Fin cfg0.N) :
    (dats m 0 c).flushed 2 t = ((cfg0.win 2).blk t).view.read (Elt Ideal) (cntT (V m c main_arg1)) := by
  show (cfg0.win 2).cut (grid0.coords t) ((dats m 0 c).after 2 t) = _
  rw [after0_2]
  unfold out0_2
  rw [View.canon_unit_zero off1]
  simp only [View.ld_unit_zero (S := S128x8192) off2]
  funext y
  obtain ⟨j, rfl⟩ : ∃ j : Fin 128, y = ix1 j := ⟨y 0, eq_ix1 y⟩
  show k0_pay2 (F := Ideal) (iblk m c 1 t) (ix1 j) = cntT (V m c main_arg1) (((cfg0.win 2).blk t).view.emb (ix1 j))
  refine (count_row _ j).trans ?_
  refine congrArg (fun p : Fin 8192 → BitVec 1 => ((ones p : ℝ) : EReal)) (funext fun k => ?_)
  exact congrArg (fun w : BitVec 32 => IntOp.cmpi .ne w 0#32)
    (mask_block m c t j k _ (by show win0_2.index t (0 : Fin 1) * 128 + 1 * j.val = _; omega) rfl)

/-- Point `t` writes to the second output the target sums of its 128 rows. -/
theorem flushed_target_sum (c : Dev nD) (t : Fin cfg0.N) :
    (dats m 0 c).flushed 3 t = ((cfg0.win 3).blk t).view.read (Elt Ideal) (sumT (V m c main_arg0) (V m c main_arg1)) := by
  obtain ⟨-, -, -, -, e4, -, -⟩ := idx_facts t
  show (cfg0.win 3).cut (grid0.coords t) ((dats m 0 c).after 3 t) = _
  rw [after0_3]
  unfold out0_3
  rw [View.canon_unit_zero off1]
  simp only [View.ld_unit_zero (S := S128x8192) off2]
  funext y
  obtain ⟨j, rfl⟩ : ∃ j : Fin 128, y = ix1 j := ⟨y 0, eq_ix1 y⟩
  show k0_pay3 (F := Ideal) (iblk m c 0 t) (iblk m c 1 t) (ix1 j)
    = sumT (V m c main_arg0) (V m c main_arg1) (((cfg0.win 3).blk t).view.emb (ix1 j))
  refine (target_sum_row _ _ j).trans ?_
  refine Finset.sum_congr rfl fun k _ => ?_
  have hr : ((((cfg0.win 3).blk t).view.emb (ix1 j)) 0).val = win0_2.index t (0 : Fin 1) * 128 + j.val := by
    show win0_3.index t (0 : Fin 1) * 128 + 1 * j.val = _; rw [e4]; omega
  have hm := mask_block m c t j k (ix2 (n0 := 4096) (n1 := 8192) ((((cfg0.win 3).blk t).view.emb (ix1 j)) 0) k) hr rfl
  have hs := score_block m c t j k (ix2 (n0 := 4096) (n1 := 8192) ((((cfg0.win 3).blk t).view.emb (ix1 j)) 0) k) hr rfl
  rw [hm, hs]
  rfl

/-- Point `t` writes to the third output the non-target sums of its 128 rows. -/
theorem flushed_nontarget_sum (c : Dev nD) (t : Fin cfg0.N) :
    (dats m 0 c).flushed 4 t = ((cfg0.win 4).blk t).view.read (Elt Ideal) (sumN (V m c main_arg0) (V m c main_arg1)) := by
  obtain ⟨-, -, -, -, -, e5, -⟩ := idx_facts t
  show (cfg0.win 4).cut (grid0.coords t) ((dats m 0 c).after 4 t) = _
  rw [after0_4]
  unfold out0_4
  rw [View.canon_unit_zero off1]
  simp only [View.ld_unit_zero (S := S128x8192) off2]
  funext y
  obtain ⟨j, rfl⟩ : ∃ j : Fin 128, y = ix1 j := ⟨y 0, eq_ix1 y⟩
  show k0_pay4 (F := Ideal) (iblk m c 0 t) (iblk m c 1 t) (ix1 j)
    = sumN (V m c main_arg0) (V m c main_arg1) (((cfg0.win 4).blk t).view.emb (ix1 j))
  refine (nontarget_sum_row _ _ j).trans ?_
  refine Finset.sum_congr rfl fun k _ => ?_
  have hr : ((((cfg0.win 4).blk t).view.emb (ix1 j)) 0).val = win0_2.index t (0 : Fin 1) * 128 + j.val := by
    show win0_4.index t (0 : Fin 1) * 128 + 1 * j.val = _; rw [e5]; omega
  have hm := mask_block m c t j k (ix2 (n0 := 4096) (n1 := 8192) ((((cfg0.win 4).blk t).view.emb (ix1 j)) 0) k) hr rfl
  have hs := score_block m c t j k (ix2 (n0 := 4096) (n1 := 8192) ((((cfg0.win 4).blk t).view.emb (ix1 j)) 0) k) hr rfl
  rw [hm, hs]
  rfl

/-! ## Every entry is written -/

/-- An entry is in point `t`'s block of the first output iff its row lies in that block's 128 rows. -/
theorem mem_block2 (t : Fin cfg0.N) (i : S4096.Idx) :
    i ∈ ((cfg0.win 2).blk t).view.set ↔ ∀ a : Fin 1, win0_2.index t a * S128.size a ≤ (i a).val ∧ (i a).val < win0_2.index t a * S128.size a + S128.size a := by
  show i ∈ ((View.whole main_v0_0).slice (win0_2.rect t)).set ↔ _
  rw [View.set_slice_whole, Rect.mem_set_unit]
  exact Iff.rfl
theorem mem_block3 (t : Fin cfg0.N) (i : S4096.Idx) :
    i ∈ ((cfg0.win 3).blk t).view.set ↔ ∀ a : Fin 1, win0_3.index t a * S128.size a ≤ (i a).val ∧ (i a).val < win0_3.index t a * S128.size a + S128.size a := by
  show i ∈ ((View.whole main_v0_1).slice (win0_3.rect t)).set ↔ _
  rw [View.set_slice_whole, Rect.mem_set_unit]
  exact Iff.rfl
theorem mem_block4 (t : Fin cfg0.N) (i : S4096.Idx) :
    i ∈ ((cfg0.win 4).blk t).view.set ↔ ∀ a : Fin 1, win0_4.index t a * S128.size a ≤ (i a).val ∧ (i a).val < win0_4.index t a * S128.size a + S128.size a := by
  show i ∈ ((View.whole main_v0_2).slice (win0_4.rect t)).set ↔ _
  rw [View.set_slice_whole, Rect.mem_set_unit]
  exact Iff.rfl

/-- Row `r` is covered by the point whose row block is `r / 128`. -/
theorem cover2 (i : S4096.Idx) : ∃ t : Fin cfg0.N, (cfg0.win 2).flush t = true ∧ i ∈ ((cfg0.win 2).blk t).view.set := by
  have hi : (i 0).val < 4096 := (i 0).isLt
  obtain ⟨t, ht⟩ := idx_onto ⟨(i 0).val / 128, by omega⟩
  have q : win0_2.index t (0 : Fin 1) = (i 0).val / 128 := ht
  refine ⟨t, flush0_2 t, ?_⟩
  rw [mem_block2]
  intro a
  match a with
  | ⟨0, _⟩ => show win0_2.index t (0 : Fin 1) * 128 ≤ (i 0).val ∧ (i 0).val < win0_2.index t (0 : Fin 1) * 128 + 128; omega
theorem cover3 (i : S4096.Idx) : ∃ t : Fin cfg0.N, (cfg0.win 3).flush t = true ∧ i ∈ ((cfg0.win 3).blk t).view.set := by
  have hi : (i 0).val < 4096 := (i 0).isLt
  obtain ⟨t, ht⟩ := idx_onto ⟨(i 0).val / 128, by omega⟩
  obtain ⟨-, -, -, -, e4, -, -⟩ := idx_facts t
  have q : win0_3.index t (0 : Fin 1) = (i 0).val / 128 := e4.trans ht
  refine ⟨t, flush0_3 t, ?_⟩
  rw [mem_block3]
  intro a
  match a with
  | ⟨0, _⟩ => show win0_3.index t (0 : Fin 1) * 128 ≤ (i 0).val ∧ (i 0).val < win0_3.index t (0 : Fin 1) * 128 + 128; omega
theorem cover4 (i : S4096.Idx) : ∃ t : Fin cfg0.N, (cfg0.win 4).flush t = true ∧ i ∈ ((cfg0.win 4).blk t).view.set := by
  have hi : (i 0).val < 4096 := (i 0).isLt
  obtain ⟨t, ht⟩ := idx_onto ⟨(i 0).val / 128, by omega⟩
  obtain ⟨-, -, -, -, -, e5, -⟩ := idx_facts t
  have q : win0_4.index t (0 : Fin 1) = (i 0).val / 128 := e5.trans ht
  refine ⟨t, flush0_4 t, ?_⟩
  rw [mem_block4]
  intro a
  match a with
  | ⟨0, _⟩ => show win0_4.index t (0 : Fin 1) * 128 ≤ (i 0).val ∧ (i 0).val < win0_4.index t (0 : Fin 1) * 128 + 128; omega

/-! ## The three arrays after the grid -/

theorem final_count (c : Dev nD) : (dats m 0 c).arrAt 2 cfg0.N = cntT (V m c main_arg1) :=
  (dats m 0 c).arrAt_eq_of_cover 2 (cntT (V m c main_arg1)) (fun t _ => flushed_count m c t) cover2
theorem final_target_sum (c : Dev nD) : (dats m 0 c).arrAt 3 cfg0.N = sumT (V m c main_arg0) (V m c main_arg1) :=
  (dats m 0 c).arrAt_eq_of_cover 3 (sumT (V m c main_arg0) (V m c main_arg1)) (fun t _ => flushed_target_sum m c t) cover3
theorem final_nontarget_sum (c : Dev nD) : (dats m 0 c).arrAt 4 cfg0.N = sumN (V m c main_arg0) (V m c main_arg1) :=
  (dats m 0 c).arrAt_eq_of_cover 4 (sumN (V m c main_arg0) (V m c main_arg1)) (fun t _ => flushed_nontarget_sum m c t) cover4

end Cert.RowLoss.Kernel

end
-- ==== Proof.Results.lean ====
/-
  The three results as functions of the argument arrays: the mean over rows of `sumT / cntT`, the mean over rows of
  `sumN / cntN`, and half their sum. Both programs' runs are stated with these same terms.
-/
import proofs.«107713_j28011776704955_2_alg».proof.Proof.Spec

noncomputable section

namespace Cert.RowLoss

open Idealize.ShloMosaic

/-- The mean target loss. -/
def lossT (hred : Rows.ReducesTo [0] One) (hOne : 0 < One.numel) (a0 : Full.Idx → EReal) (a1 : Full.Idx → BitVec 32) : FVec Ideal One .f32 :=
  meanQuot hred hOne (sumT a0 a1) (cntT a1)

/-- The mean non-target loss. -/
def lossN (hred : Rows.ReducesTo [0] One) (hOne : 0 < One.numel) (a0 : Full.Idx → EReal) (a1 : Full.Idx → BitVec 32) : FVec Ideal One .f32 :=
  meanQuot hred hOne (sumN a0 a1) (cntN a1)

/-- Half the sum of the two. -/
def loss (hred : Rows.ReducesTo [0] One) (hOne : 0 < One.numel) (a0 : Full.Idx → EReal) (a1 : Full.Idx → BitVec 32) : FVec Ideal One .f32 :=
  halfSum (lossT hred hOne a0 a1) (lossN hred hOne a0 a1)

end Cert.RowLoss

end
-- ==== Proof.KernelRun.lean ====
/-
  The kernel program's run, read: its three results as the specification's functions of the argument arrays.

  After the grid, the host divides the target sums by the target counts row by row, adds the 4096 quotients from zero
  and divides by 4096; does the same with the non-target sums and `8192 - (target count)`; and halves the sum of the two
  means. The three arrays the grid left are the specification's row functions, and `8192 - cntT` is `cntN`.
-/
import proofs.«107713_j28011776704955_2_alg».proof.Proof.KernelArrays
import proofs.«107713_j28011776704955_2_alg».proof.Proof.Results
import Idealize.ShloMosaic.Lib.StableHlo.Run
import Idealize.ShloMosaic.Lib.Pipeline.FrameSuffix

set_option maxRecDepth 16384

noncomputable section

namespace Cert.RowLoss.Kernel

open Cert.KernelIdeal Cert.KernelIdeal.Gen Cert.RowLoss
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The grid's arrays as the host lines after it find them -/

theorem left_count (c : Dev nD) :
    Pipeline.withArrays (cfgs 0).spec c (V0 m c) (fun w => (dats m 0 c).arrAt w (cfgs 0).N) (Proc.tc.devRef main_v0_0)
      = cntT (V m c main_arg1) :=
  (Pipeline.withArrays_arr spec0 launch0.win.arr_inj c _ _ 2).trans (final_count m c)

theorem left_target_sum (c : Dev nD) :
    Pipeline.withArrays (cfgs 0).spec c (V0 m c) (fun w => (dats m 0 c).arrAt w (cfgs 0).N) (Proc.tc.devRef main_v0_1)
      = sumT (V m c main_arg0) (V m c main_arg1) :=
  (Pipeline.withArrays_arr spec0 launch0.win.arr_inj c _ _ 3).trans (final_target_sum m c)

theorem left_nontarget_sum (c : Dev nD) :
    Pipeline.withArrays (cfgs 0).spec c (V0 m c) (fun w => (dats m 0 c).arrAt w (cfgs 0).N) (Proc.tc.devRef main_v0_2)
      = sumN (V m c main_arg0) (V m c main_arg1) :=
  (Pipeline.withArrays_arr spec0 launch0.win.arr_inj c _ _ 4).trans (final_nontarget_sum m c)

/-- The row length less the target counts is the non-target counts. -/
theorem len_sub_cntT (a1 : Full.Idx → BitVec 32) :
    subf (F := Ideal) (broadcastInDim S4096 ![] bcast_S_S4096 (constant (F := Ideal) S_ .f32 0x46000000#32)) (cntT a1) = cntN a1 := by
  funext i
  show Ideal.ofBits .f32 0x46000000#32 - ((ones (bit a1 (i 0)) : ℝ) : EReal) = _
  exact len_sub_count _

/-! ## The three results -/

theorem result_target (c : Dev nD) :
    Pipeline.afterTail₀ cfgs (dats m) 0 (V0 m) [hostOps1] c main_v5
      = lossT reducesTo_S4096_S_d0 h_S_ (V m c main_arg0) (V m c main_arg1) := by
  unfold Pipeline.afterTail₀
  show StableHlo.after hostOps1 _ (Proc.devRef .tc main_v5) = _
  after_results
  rw [left_target_sum, left_count]
  rfl

theorem result_nontarget (c : Dev nD) :
    Pipeline.afterTail₀ cfgs (dats m) 0 (V0 m) [hostOps1] c main_v8
      = lossN reducesTo_S4096_S_d0 h_S_ (V m c main_arg0) (V m c main_arg1) := by
  unfold Pipeline.afterTail₀
  show StableHlo.after hostOps1 _ (Proc.devRef .tc main_v8) = _
  after_results
  rw [left_nontarget_sum, left_count, len_sub_cntT]
  rfl

theorem result_total (c : Dev nD) :
    Pipeline.afterTail₀ cfgs (dats m) 0 (V0 m) [hostOps1] c main_v10
      = loss reducesTo_S4096_S_d0 h_S_ (V m c main_arg0) (V m c main_arg1) := by
  unfold Pipeline.afterTail₀
  show StableHlo.after hostOps1 _ (Proc.devRef .tc main_v10) = _
  after_results
  rw [left_target_sum, left_nontarget_sum, left_count, len_sub_cntT]
  rfl

/-! ## The run -/

/-- Every weakly fair execution of the kernel program terminates with its three results at the specification's
    functions of the argument arrays as launched, and the argument arrays unchanged. -/
theorem run : θ_run defs (onTc (τ := τ) (main (F := Ideal))) ⟨m, fun _ => 0, ρ⟩ fun r => ∀ c : Dev nD,
      r.2.mem ((c.tc : Thread nD τ).loc main_v10) = loss reducesTo_S4096_S_d0 h_S_ (m ((c.tc : Thread nD τ).loc main_arg0)) (m ((c.tc : Thread nD τ).loc main_arg1))
      ∧ r.2.mem ((c.tc : Thread nD τ).loc main_v5) = lossT reducesTo_S4096_S_d0 h_S_ (m ((c.tc : Thread nD τ).loc main_arg0)) (m ((c.tc : Thread nD τ).loc main_arg1))
      ∧ r.2.mem ((c.tc : Thread nD τ).loc main_v8) = lossN reducesTo_S4096_S_d0 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v10 (Pipeline.mem_restRefs_of main_v10 rfl (by decide))).trans (result_total m c),
     ((h c).2 main_v5 (Pipeline.mem_restRefs_of main_v5 rfl (by decide))).trans (result_target m c),
     ((h c).2 main_v8 (Pipeline.mem_restRefs_of main_v8 rfl (by decide))).trans (result_nontarget m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.RowLoss.Kernel

end
-- ==== Proof.RefRun.lean ====
/-
  The reference program's run, read: its three results as the specification's functions of the argument arrays.

  The reference forms the mask bit of every entry, then per row: adds the bits, widened to 32-bit words, with wrapping
  addition and converts the word (the target count); does the same with the complemented bits (the non-target count);
  adds `1 - score` over the set bits and `max (score - 0) 0` over the unset ones, each sum started from the literal zero.
  A row has 8192 entries, so the word sums do not wrap: the converted words are the counts. The rest is the same
  quotients, means and halved sum as the specification's.
-/
import proofs.«107713_j28011776704955_2_alg».proof.Proof.Gen.ReferenceIdeal.Read
import proofs.«107713_j28011776704955_2_alg».proof.Proof.Results
import Idealize.ShloMosaic.PureOps.Reduce

set_option maxRecDepth 16384

noncomputable section

namespace Cert.RowLoss.Ref

open Cert.ReferenceIdeal Cert.ReferenceIdeal.Gen Cert.ReferenceIdeal.Read Cert.RowLoss
open Idealize.ShloMosaic Idealize.ShloMosaic.TcCoe Idealize.SL.Sem Idealize.ShloMosaic.ValueIdx

/-- Row `i` with column `k` inserted, as the generated reading spells it, is entry (`i`, `k`). -/
theorem idx13 (i : S4096.Idx) (k : Fin 8192) : idx_main_v13 i k = ix2 (n0 := 4096) (n1 := 8192) (i 0) k :=
  funext fun a => Fin.ext (by match a with | ⟨0, _⟩ => rfl | ⟨1, _⟩ => rfl)
theorem idx19 (i : S4096.Idx) (k : Fin 8192) : idx_main_v19 i k = ix2 (n0 := 4096) (n1 := 8192) (i 0) k :=
  funext fun a => Fin.ext (by match a with | ⟨0, _⟩ => rfl | ⟨1, _⟩ => rfl)

/-- The reference's target sums are the specification's: the sum starts from the literal zero, which is zero. -/
theorem target_sum_eq (x0 : (⟨S4096x8192, .f32⟩ : BufTy).Contents (Elt Ideal)) (x1 : (⟨S4096x8192, .i32⟩ : BufTy).Contents (Elt Ideal)) :
    val_main_v13 (F := Ideal) x0 x1 = sumT x0 x1 := by
  funext i
  rw [val_main_v13_apply]
  show Ideal.ofBits .f32 0x00000000#32 + _ = _
  rw [Ideal.ofBits_zero_f32, zero_add]
  refine Finset.sum_congr rfl fun k _ => ?_
  rw [idx13]
  rfl

/-- The reference's non-target sums are the specification's. -/
theorem nontarget_sum_eq (x0 : (⟨S4096x8192, .f32⟩ : BufTy).Contents (Elt Ideal)) (x1 : (⟨S4096x8192, .i32⟩ : BufTy).Contents (Elt Ideal)) :
    val_main_v19 (F := Ideal) x0 x1 = sumN x0 x1 := by
  funext i
  rw [val_main_v19_apply]
  show Ideal.ofBits .f32 0x00000000#32 + _ = _
  rw [Ideal.ofBits_zero_f32, zero_add]
  refine Finset.sum_congr rfl fun k _ => ?_
  rw [idx19]
  rfl

theorem reduces_rows : S4096x8192.Reduces [1] S4096 := by decide

/-- Row `i` with column `k` inserted by the reduction's own lift is entry (`i`, `k`). -/
theorem lift_eq (i : S4096.Idx) (k : Fin 8192) : reduces_rows.lift i k = ix2 (n0 := 4096) (n1 := 8192) (i 0) k :=
  funext fun a => Fin.ext (by match a with | ⟨0, _⟩ => rfl | ⟨1, _⟩ => rfl)

/-- The reference's target counts: the wrapping word sum of a row's widened bits, converted, is the row's number of
    targets. -/
theorem count_eq (x1 : (⟨S4096x8192, .i32⟩ : BufTy).Contents (Elt Ideal)) : val_main_v5 (F := Ideal) x1 = cntT x1 := by
  funext i
  show (((val_main_v4 (F := Ideal) x1 i).toInt : ℝ) : EReal) = _
  unfold val_main_v4
  rw [Host.reduce_eq_fold_single IntOp.addi _ _ reducesTo_S4096x8192_S4096_d1 reduces_rows h_S_ i]
  refine Eq.trans ?_ (word_sum_bits (bit x1 (i 0)))
  refine congrArg (fun w : BitVec 32 => (((w.toInt : ℤ) : ℝ) : EReal)) ?_
  refine Finset.fold_congr fun k _ => ?_
  exact congrArg (fun j : S4096x8192.Idx => (IntOp.cmpi .ne (x1 j) 0#32).setWidth 32) (lift_eq i k)

/-- The reference's non-target counts: the same of the complemented bits is the row's length less its targets. -/
theorem noncount_eq (x1 : (⟨S4096x8192, .i32⟩ : BufTy).Contents (Elt Ideal)) : val_main_v9 (F := Ideal) x1 = cntN x1 := by
  funext i
  show (((val_main_v8 (F := Ideal) x1 i).toInt : ℝ) : EReal) = _
  unfold val_main_v8
  rw [Host.reduce_eq_fold_single IntOp.addi _ _ reducesTo_S4096x8192_S4096_d1 reduces_rows h_S_ i]
  refine Eq.trans ?_ (word_sum_not_bits (bit x1 (i 0)))
  refine congrArg (fun w : BitVec 32 => (((w.toInt : ℤ) : ℝ) : EReal)) ?_
  refine Finset.fold_congr fun k _ => ?_
  exact congrArg (fun j : S4096x8192.Idx => (~~~(IntOp.cmpi .ne (x1 j) 0#32)).setWidth 32) (lift_eq i k)

/-! ## The three results -/

theorem result_target (x0 : (⟨S4096x8192, .f32⟩ : BufTy).Contents (Elt Ideal)) (x1 : (⟨S4096x8192, .i32⟩ : BufTy).Contents (Elt Ideal)) :
    val_main_v22 (F := Ideal) x0 x1 = lossT reducesTo_S4096_S_d0 h_S_ x0 x1 := by
  unfold val_main_v22 val_main_v21 val_main_v20
  rw [target_sum_eq, count_eq]
  rfl

theorem result_nontarget (x0 : (⟨S4096x8192, .f32⟩ : BufTy).Contents (Elt Ideal)) (x1 : (⟨S4096x8192, .i32⟩ : BufTy).Contents (Elt Ideal)) :
    val_main_v25 (F := Ideal) x0 x1 = lossN reducesTo_S4096_S_d0 h_S_ x0 x1 := by
  unfold val_main_v25 val_main_v24 val_main_v23
  rw [nontarget_sum_eq, noncount_eq]
  rfl

theorem result_total (x0 : (⟨S4096x8192, .f32⟩ : BufTy).Contents (Elt Ideal)) (x1 : (⟨S4096x8192, .i32⟩ : BufTy).Contents (Elt Ideal)) :
    val_main_v27 (F := Ideal) x0 x1 = loss reducesTo_S4096_S_d0 h_S_ x0 x1 := by
  unfold val_main_v27 val_main_v26
  rw [result_target, result_nontarget]
  rfl

/-! ## The run -/

/-- Every weakly fair execution of the reference program terminates with its three results at the specification's
    functions of the argument arrays as launched, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = loss reducesTo_S4096_S_d0 h_S_ (m ((c.tc : Thread nD τ).loc main_arg0)) (m ((c.tc : Thread nD τ).loc main_arg1))
      ∧ r.2.mem ((c.tc : Thread nD τ).loc main_v22) = lossT reducesTo_S4096_S_d0 h_S_ (m ((c.tc : Thread nD τ).loc main_arg0)) (m ((c.tc : Thread nD τ).loc main_arg1))
      ∧ r.2.mem ((c.tc : Thread nD τ).loc main_v25) = lossN reducesTo_S4096_S_d0 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans ((val_main_v27_eq _ _).trans (result_total _ _)),
     (h c).2.1.trans ((val_main_v22_eq _ _).trans (result_target _ _)),
     (h c).2.2.1.trans ((val_main_v25_eq _ _).trans (result_nontarget _ _)),
     (h c).2.2.2.1, (h c).2.2.2.2⟩)
    (Cert.ReferenceIdeal.Value.run (F := Ideal) m ρ)

end Cert.RowLoss.Ref

end
-- ==== Proof.lean ====
/-
  A ranking loss with per-row masked means, computed two ways, gives the same three numbers at the exact values.

  The inputs are 4096 rows by 8192 columns of scores and of mask words; an entry is a target when its mask word is
  nonzero. Per row: the number of targets `cntT` and of non-targets `cntN`; the sum `sumT` over targets of `1 - score`;
  the sum `sumN` over non-targets of `max (score - 0) 0`. The results are the mean over rows of `sumT / cntT`, the mean
  over rows of `sumN / cntN`, and half the sum of the two means.

  The kernel program walks the rows 128 at a time, each grid point writing its rows' `cntT`, `sumT` and `sumN`, and the
  host lines after the grid take `8192 - cntT` for `cntN`. It counts targets by adding the mask bits as extended reals.
  The reference program forms all four row vectors on the host, and counts by adding the bits, and the complemented
  bits, as 32-bit words with wrapping addition before converting. A row has 8192 < 2^31 entries, so no word sum wraps
  and both counts of either program are the same numbers; a row's targets and non-targets together are its 8192
  entries. Everything else is the same operations of the same entries, so no finiteness of the scores is used.

  The idealization rewrote nothing in the kernel program, so that it is sanctioned holds trivially.
-/
import proofs.«107713_j28011776704955_2_alg».proof.Defs
import proofs.«107713_j28011776704955_2_alg».proof.Proof.Gen.Kernel
import proofs.«107713_j28011776704955_2_alg».proof.Proof.Gen.Kernel.Skeleton
import proofs.«107713_j28011776704955_2_alg».proof.Proof.Gen.Kernel.Launch
import proofs.«107713_j28011776704955_2_alg».proof.Proof.Gen.Kernel.Points
import proofs.«107713_j28011776704955_2_alg».proof.Proof.Gen.Kernel.Frame
import proofs.«107713_j28011776704955_2_alg».proof.Proof.Gen.KernelIdeal
import proofs.«107713_j28011776704955_2_alg».proof.Proof.Gen.KernelIdeal.Skeleton
import proofs.«107713_j28011776704955_2_alg».proof.Proof.Gen.KernelIdeal.Launch
import proofs.«107713_j28011776704955_2_alg».proof.Proof.Gen.KernelIdeal.Points
import proofs.«107713_j28011776704955_2_alg».proof.Proof.Gen.KernelIdeal.Frame
import proofs.«107713_j28011776704955_2_alg».proof.Proof.Gen.ReferenceIdeal
import proofs.«107713_j28011776704955_2_alg».proof.Proof.Gen.Pre_finite_inputs
import Idealize.ShloMosaic.Adequacy
import Idealize.ShloMosaic.Init
import proofs.«107713_j28011776704955_2_alg».proof.Proof.Gen.ReferenceIdeal.Run
import proofs.«107713_j28011776704955_2_alg».proof.Proof.KernelRun
import proofs.«107713_j28011776704955_2_alg».proof.Proof.RefRun

noncomputable section

namespace Cert.Proof

open Idealize.ShloMosaic Idealize.SL.Sem

/-- The kernel program, at the word level, runs and leaves its arguments as they were. -/
theorem frame_kernel : Cert.frame_Kernel := fun m ρ _ => Cert.Kernel.Gen.frame m ρ

/-- So does it at the exact values. -/
theorem frame_kernelIdeal : Cert.frame_KernelIdeal := fun m ρ _ => Cert.KernelIdeal.Gen.frame m ρ

/-- The reference program runs and leaves its arguments as they were: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the two arguments, both programs end with the half sum, the mean target loss and the
    mean non-target loss of those arguments: the same three functions of the same arrays. -/
theorem algebraic : Cert.algebraic_KernelIdeal_ReferenceIdeal := by
  intro m ρ m' ρ' _ hagree
  refine ⟨_, _, _, Cert.RowLoss.Kernel.run m ρ, ?_⟩
  refine (θ_run Cert.ReferenceIdeal.defs _ _).mono (fun _ h c => ?_) (Cert.RowLoss.Ref.run m' ρ')
  obtain ⟨h1, h2, h3, h4, h5⟩ := h c
  refine ⟨h1.trans ?_, h2.trans ?_, h3.trans ?_, h4, h5⟩
  · rw [(hagree c).1, (hagree c).2]
  · rw [(hagree c).1, (hagree c).2]
  · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
